-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S16x4096x64 : Shape := ⟨3, ![16, 4096, 64]⟩
abbrev S1x4096x64 : Shape := ⟨3, ![1, 4096, 64]⟩
abbrev S4096x64 : Shape := ⟨2, ![4096, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S16x4096x64, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S2x8x4096x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x4096x64, .f32⟩
  | .local _ .vmem, ⟨7, _⟩ => ⟨S1x4096x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8x4096x64_S16x4096x64 : S2x8x4096x64.ShapeCasts S16x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  shapeCasts_S16x4096x64_S2x8x4096x64 : S16x4096x64.ShapeCasts S2x8x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S16x4096x64.size a
  hwx0_0 : ∀ i : grid0.Coords, EltTy.bits .f32 = 32 ∨ (Rect.block (s := S16x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S16x4096x64.size a
  hwx0_3 : ∀ i : grid0.Coords, EltTy.bits .f32 = 32 ∨ (Rect.block (s := S16x4096x64) S1x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S2x8x4096x4096 : Shape := ⟨4, ![2, 8, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x4096, .f32⟩
  | .hbm, ⟨4, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.AttnLaw.lean ====
/-
  Unnormalised attention, read two ways, on the extended reals.

  For one batch entry and head, with queries q[s, e], keys k[t, e] and values v[t, d]
  (s, t range over the 4096 positions, e, d over the 64 features):

    keys-values first :  out[s, d] = Σ_e q[s, e] · (Σ_t k[t, e] · v[t, d])
    scores first      :  out[s, d] = Σ_t (Σ_e q[s, e] · k[t, e]) · v[t, d]

  Both are the triple sum Σ_e Σ_t q[s, e] · k[t, e] · v[t, d]: distribute the outer factor over the inner
  sum, exchange the two finite sums, and regroup the product. Distributivity fails on the extended reals
  at the infinities (x · (a + b) with a = +∞, b = −∞), so the law is proved for REAL entries: every factor
  is the coercion of a real, the coercion commutes with finite sums and products, and the identity is the
  one of the real numbers.
-/
import Idealize.ShloMosaic.Lib.ValueIdx

noncomputable section

namespace Cert.AttnLaw

open Idealize.ShloMosaic Idealize.ShloMosaic.ValueIdx

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reassociation for real entries, over any two finite index types: contracting the inner pair first
    or the outer pair first gives the same triple sum. -/
theorem reassoc_real {ι κ : Type} [Fintype ι] [Fintype κ] (a : ι → ℝ) (b : κ → ι → ℝ) (c : κ → ℝ) :
    ∑ e, (a e : EReal) * ∑ t, (b t e : EReal) * (c t : EReal)
      = ∑ t, (∑ e, (a e : EReal) * (b t e : EReal)) * (c t : EReal) := by
  have hL : ∀ e, (a e : EReal) * ∑ t, (b t e : EReal) * (c t : EReal) = ((a e * ∑ t, b t e * c t : ℝ) : EReal) := by
    intro e
    rw [EReal.coe_mul, coe_sum]
    simp only [EReal.coe_mul]
  have hR : ∀ t, (∑ e, (a e : EReal) * (b t e : EReal)) * (c t : EReal) = (((∑ e, a e * b t e) * c t : ℝ) : EReal) := by
    intro t
    rw [EReal.coe_mul, coe_sum]
    simp only [EReal.coe_mul]
  simp only [hL, hR, ← coe_sum]
  refine congrArg _ ?_
  simp only [Finset.mul_sum, Finset.sum_mul]
  rw [Finset.sum_comm]
  exact Finset.sum_congr rfl fun t _ => Finset.sum_congr rfl fun e _ => by ring

/-- An array of four axes, batch × head × position × feature. -/
abbrev Arr4 := (⟨4, ![2, 8, 4096, 64]⟩ : Shape).Idx → EReal

/-- Every entry is a real number (neither infinity). -/
def IsReal (x : Arr4) : Prop := ∀ i, ∃ r : ℝ, x i = (r : EReal)

/-- Keys-values first: the 64 × 64 matrix kᵀv of a head, then q times it. -/
def kvFirst (q k v : Arr4) (b : Fin 2) (h : Fin 8) (s : Fin 4096) (d : Fin 64) : EReal :=
  ∑ e : Fin 64, q (ix4 b h s e) * ∑ t : Fin 4096, k (ix4 b h t e) * v (ix4 b h t d)

/-- Scores first: the 4096 × 4096 matrix qkᵀ of a head, then it times v. -/
def scoresFirst (q k v : Arr4) (b : Fin 2) (h : Fin 8) (s : Fin 4096) (d : Fin 64) : EReal :=
  ∑ t : Fin 4096, (∑ e : Fin 64, q (ix4 b h s e) * k (ix4 b h t e)) * v (ix4 b h t d)

/-- On real entries the two orders agree, entry by entry. -/
theorem kvFirst_eq_scoresFirst {q k v : Arr4} (hq : IsReal q) (hk : IsReal k) (hv : IsReal v)
    (b : Fin 2) (h : Fin 8) (s : Fin 4096) (d : Fin 64) : kvFirst q k v b h s d = scoresFirst q k v b h s d := by
  choose q' hq' using hq
  choose k' hk' using hk
  choose v' hv' using hv
  unfold kvFirst scoresFirst
  simp only [hq', hk', hv']
  exact reassoc_real (fun e => q' (ix4 b h s e)) (fun t e => k' (ix4 b h t e)) (fun t => v' (ix4 b h t d))

/-- The attention output as ONE function of the three arrays, index by index (scores first). -/
def attn (q k v : Arr4) : Arr4 := fun i => scoresFirst q k v (i 0) (i 1) (i 2) (i 3)

theorem attn_ix4 (q k v : Arr4) (b : Fin 2) (h : Fin 8) (s : Fin 4096) (d : Fin 64) :
    attn q k v (ix4 b h s d) = scoresFirst q k v b h s d := rfl

end Cert.AttnLaw

end
-- ==== Proof.Body.lean ====
/-
  The kernel body's arithmetic at one index.

  At a grid point the body holds three blocks of shape [1, 4096, 64] — the queries, keys and values of one
  (batch, head) pair — and stores one block of the same shape. With the unit axis squeezed, it forms

    kv[e, d]  = Σ_t k[t, e] · v[t, d]        (contract the 4096 positions of k and v: the 64 × 64 matrix kᵀv)
    out[s, d] = Σ_e q[s, e] · kv[e, d]       (contract the 64 features of q with the rows of kv)

  each product accumulated into a zero matrix, so each is just its sum. Read at position s and feature d,
  what the body stores is  Σ_e q[s, e] · Σ_t k[t, e] · v[t, d].
-/
import proofs.«125593_j26268019982930_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The record of the first product, kᵀv: both operands contract their axis of positions. -/
abbrev dotKV := dot_S4096x64_S4096x64_S64x64_0_0_1_1_n_n
/-- The record of the second product, q · kv: q contracts its features with kv's rows. -/
abbrev dotQ := dot_S4096x64_S64x64_S4096x64_1_0_0_1_n_n

/-! ## kᵀv at an index -/

theorem kv_lhs_0 (j : S64x64.Idx) (p : dotKV.contr.Idx) : (dotKV.lhsIdx j p 0).val = (p ⟨0, by decide⟩).val :=
  dotKV.lhsIdx_val_of_single rfl j p
theorem kv_lhs_1 (j : S64x64.Idx) (p : dotKV.contr.Idx) : (dotKV.lhsIdx j p 1).val = (j 0).val := by
  unfold DotDims.lhsIdx
  rw [dif_neg (show ¬(1 : Fin S4096x64.rank) ∈ dotKV.lhsBatch by decide), dif_pos (show (1 : Fin S4096x64.rank) ∈ dotKV.lhsNonContracting by decide)]
  rfl
theorem kv_rhs_0 (j : S64x64.Idx) (p : dotKV.contr.Idx) : (dotKV.rhsIdx j p 0).val = (p ⟨0, by decide⟩).val :=
  dotKV.rhsIdx_val_of_single rfl j p
theorem kv_rhs_1 (j : S64x64.Idx) (p : dotKV.contr.Idx) : (dotKV.rhsIdx j p 1).val = (j 1).val := by
  unfold DotDims.rhsIdx
  rw [dif_neg (show ¬(1 : Fin S4096x64.rank) ∈ dotKV.rhsBatch by decide), dif_pos (show (1 : Fin S4096x64.rank) ∈ dotKV.rhsNonContracting by decide)]
  rfl

/-- Entry (e, d) of kᵀv is the sum over the positions t of k[t, e] · v[t, d]. -/
theorem kv_apply (a b : FVec Ideal S4096x64 .f32) (e d : Fin 64) :
    matmul dotKV none a b (constant S64x64 .f32 0x00000000#32) (ix2 e d) = ∑ t : Fin 4096, a (ix2 t e) * b (ix2 t d) := by
  refine (Ideal.matmul_constant_zero_apply dotKV none a b (ix2 e d)).trans ?_
  rw [← Equiv.sum_comp (contrEquiv1 dotKV 4096 rfl rfl).symm]
  refine Finset.sum_congr rfl fun t _ => ?_
  have ht := contrEquiv1_symm_val dotKV 4096 rfl rfl t
  have el : dotKV.lhsIdx (ix2 e d) ((contrEquiv1 dotKV 4096 rfl rfl).symm t) = ix2 t e := funext fun x => Fin.ext (by
    match x with
    | ⟨0, _⟩ => exact (kv_lhs_0 _ _).trans ht
    | ⟨1, _⟩ => exact kv_lhs_1 _ _)
  have er : dotKV.rhsIdx (ix2 e d) ((contrEquiv1 dotKV 4096 rfl rfl).symm t) = ix2 t d := funext fun x => Fin.ext (by
    match x with
    | ⟨0, _⟩ => exact (kv_rhs_0 _ _).trans ht
    | ⟨1, _⟩ => exact kv_rhs_1 _ _)
  rw [el, er]

/-! ## q · kv at an index -/

theorem q_lhs_0 (j : S4096x64.Idx) (p : dotQ.contr.Idx) : (dotQ.lhsIdx j p 0).val = (j 0).val := by
  unfold DotDims.lhsIdx
  rw [dif_neg (show ¬(0 : Fin S4096x64.rank) ∈ dotQ.lhsBatch by decide), dif_pos (show (0 : Fin S4096x64.rank) ∈ dotQ.lhsNonContracting by decide)]
  rfl
theorem q_lhs_1 (j : S4096x64.Idx) (p : dotQ.contr.Idx) : (dotQ.lhsIdx j p 1).val = (p ⟨0, by decide⟩).val :=
  dotQ.lhsIdx_val_of_single rfl j p
theorem q_rhs_0 (j : S4096x64.Idx) (p : dotQ.contr.Idx) : (dotQ.rhsIdx j p 0).val = (p ⟨0, by decide⟩).val :=
  dotQ.rhsIdx_val_of_single rfl j p
theorem q_rhs_1 (j : S4096x64.Idx) (p : dotQ.contr.Idx) : (dotQ.rhsIdx j p 1).val = (j 1).val := by
  unfold DotDims.rhsIdx
  rw [dif_neg (show ¬(1 : Fin S64x64.rank) ∈ dotQ.rhsBatch by decide), dif_pos (show (1 : Fin S64x64.rank) ∈ dotQ.rhsNonContracting by decide)]
  rfl

/-- Entry (s, d) of q · kv is the sum over the features e of q[s, e] · kv[e, d]. -/
theorem q_apply (a : FVec Ideal S4096x64 .f32) (b : FVec Ideal S64x64 .f32) (s : Fin 4096) (d : Fin 64) :
    matmul dotQ none a b (constant S4096x64 .f32 0x00000000#32) (ix2 s d) = ∑ e : Fin 64, a (ix2 s e) * b (ix2 e d) := by
  refine (Ideal.matmul_constant_zero_apply dotQ none a b (ix2 s d)).trans ?_
  rw [← Equiv.sum_comp (contrEquiv1 dotQ 64 rfl rfl).symm]
  refine Finset.sum_congr rfl fun e _ => ?_
  have he := contrEquiv1_symm_val dotQ 64 rfl rfl e
  have el : dotQ.lhsIdx (ix2 s d) ((contrEquiv1 dotQ 64 rfl rfl).symm e) = ix2 s e := funext fun x => Fin.ext (by
    match x with
    | ⟨0, _⟩ => exact q_lhs_0 _ _
    | ⟨1, _⟩ => exact (q_lhs_1 _ _).trans he)
  have er : dotQ.rhsIdx (ix2 s d) ((contrEquiv1 dotQ 64 rfl rfl).symm e) = ix2 e d := funext fun x => Fin.ext (by
    match x with
    | ⟨0, _⟩ => exact (q_rhs_0 _ _).trans he
    | ⟨1, _⟩ => exact q_rhs_1 _ _)
  rw [el, er]

/-! ## The block with its unit axis squeezed -/

/-- The [1, 4096, 64] block viewed [4096, 64] reads (0, s, e) at (s, e). -/
theorem squeeze_apply (x : Vec Ideal S1x4096x64 .f32) (hc : S1x4096x64.ShapeCasts S4096x64) (s : Fin 4096) (e : Fin 64) :
    shapeCast S4096x64 x hc (ix2 s e) = x (ix3 (0 : Fin 1) s e) := by
  refine (shapeCast_dropUnit_apply ![4096, 64] x hc (ix2 s e)).trans (congrArg x ?_)
  funext a
  match a with
  | ⟨0, _⟩ => rfl
  | ⟨1, _⟩ => rfl
  | ⟨2, _⟩ => rfl

/-! ## What the body stores -/

/-- The stored block at position s and feature d: Σ_e q[s, e] · Σ_t k[t, e] · v[t, d] of the three loaded blocks. -/
theorem pay_apply (x0 x1 x2 : Vec Ideal S1x4096x64 .f32) (s : Fin 4096) (d : Fin 64) :
    k0_pay1 (F := Ideal) x0 x1 x2 (ix3 (0 : Fin 1) s d)
      = ∑ e : Fin 64, x0 (ix3 0 s e) * ∑ t : Fin 4096, x1 (ix3 0 t e) * x2 (ix3 0 t d) := by
  unfold k0_pay1
  refine (shapeCast_addUnit_apply ![4096, 64] _ _ _).trans ?_
  have hj : (fun a : Fin 2 => ix3 (0 : Fin 1) s d a.succ) = ix2 s d := funext fun a => by
    match a with
    | ⟨0, _⟩ => rfl
    | ⟨1, _⟩ => rfl
  refine (congrArg _ hj).trans ?_
  refine (q_apply _ _ s d).trans ?_
  refine Finset.sum_congr rfl fun e _ => ?_
  refine congrArg₂ (· * ·) (squeeze_apply x0 _ s e) ?_
  refine (kv_apply _ _ e d).trans ?_
  exact Finset.sum_congr rfl fun t _ => congrArg₂ (· * ·) (squeeze_apply x1 _ t e) (squeeze_apply x2 _ t d)

end Cert.KernelIdeal.Body

end
-- ==== Proof.HeadArray.lean ====
/-
  The array the region leaves: one (batch, head) slab per grid point.

  The grid has 16 points, one per (batch, head) pair g. At point g every window's block is slab g of its
  array — rows [g, 0.., 0..] of shape [1, 4096, 64] — so the body sees q[g], k[g], v[g] whole and writes
  out[g] whole. What point g writes back is therefore slab g of ONE function of the three arrays,

    headAttn Q K V [g, s, d] = Σ_e Q[g, s, e] · Σ_t K[g, t, e] · V[g, t, d],

  and since the 16 slabs cover the output array, that array ends holding headAttn of the arrays the
  region found.
-/
import proofs.«125593_j26268019982930_2_alg».proof.Proof.Gen.KernelIdeal.Frame
import proofs.«125593_j26268019982930_2_alg».proof.Proof.Body
import Idealize.ShloMosaic.Lib.Pipeline.Value
import Idealize.ShloMosaic.Lib.ValueIdx

noncomputable section

namespace Cert.KernelIdeal.HeadArray

open Cert.KernelIdeal Cert.KernelIdeal.Gen Idealize.ShloMosaic Idealize.ShloMosaic.TcCoe Idealize.SL.Sem
open Idealize.ShloMosaic.ValueIdx
open Idealize.ShloMosaic.Pipeline (Dat)

/-- Entry (g, s, d) of the output: Σ_e Q[g, s, e] · Σ_t K[g, t, e] · V[g, t, d]. -/
def headAttnAt (Q K V : S16x4096x64.Idx → EReal) (g : Fin 16) (s : Fin 4096) (d : Fin 64) : EReal :=
  ∑ e : Fin 64, Q (ix3 g s e) * ∑ t : Fin 4096, K (ix3 g t e) * V (ix3 g t d)

/-- The output array as one function of the three [16, 4096, 64] arrays, index by index. -/
def headAttn (Q K V : S16x4096x64.Idx → EReal) : S16x4096x64.Idx → EReal := fun j =>
  headAttnAt Q K V ⟨(j 0).val, (j 0).isLt⟩ ⟨(j 1).val, (j 1).isLt⟩ ⟨(j 2).val, (j 2).isLt⟩

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 16 points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every slab is some point's. -/
theorem idx_onto : ∀ g : Fin 16, ∃ t : Fin cfg0.N, win0_3.index t = ![g.val, 0, 0] :=
  (by decide +kernel : ∀ g : Fin 16, ∃ t : Fin grid0.N, win0_3.index t = ![g.val, 0, 0])

/-- Where a block's element sits in its array: at point t, element y of any window's block is row (t, y₁, y₂). -/
theorem emb0 (t : Fin cfg0.N) (y : S1x4096x64.Idx) (k : S16x4096x64.Idx)
    (hk0 : (k 0).val = t.val) (hk1 : (k 1).val = (y 1).val) (hk2 : (k 2).val = (y 2).val) :
    ((cfg0.win 0).blk t).view.emb y = k := by
  obtain ⟨e0, e1, e2, -⟩ := idx_facts t
  have h0 : (y 0).val < 1 := (y 0).isLt
  funext a; apply Fin.ext
  match a with
  | ⟨0, _⟩ => show win0_0.index t (0 : Fin 3) * 1 + 1 * (y 0).val = (k 0).val; omega
  | ⟨1, _⟩ => show win0_0.index t (1 : Fin 3) * 4096 + 1 * (y 1).val = (k 1).val; omega
  | ⟨2, _⟩ => show win0_0.index t (2 : Fin 3) * 64 + 1 * (y 2).val = (k 2).val; omega
theorem emb1 (t : Fin cfg0.N) (y : S1x4096x64.Idx) (k : S16x4096x64.Idx)
    (hk0 : (k 0).val = t.val) (hk1 : (k 1).val = (y 1).val) (hk2 : (k 2).val = (y 2).val) :
    ((cfg0.win 1).blk t).view.emb y = k := by
  obtain ⟨-, -, -, e0, e1, e2, -⟩ := idx_facts t
  have h0 : (y 0).val < 1 := (y 0).isLt
  funext a; apply Fin.ext
  match a with
  | ⟨0, _⟩ => show win0_1.index t (0 : Fin 3) * 1 + 1 * (y 0).val = (k 0).val; omega
  | ⟨1, _⟩ => show win0_1.index t (1 : Fin 3) * 4096 + 1 * (y 1).val = (k 1).val; omega
  | ⟨2, _⟩ => show win0_1.index t (2 : Fin 3) * 64 + 1 * (y 2).val = (k 2).val; omega
theorem emb2 (t : Fin cfg0.N) (y : S1x4096x64.Idx) (k : S16x4096x64.Idx)
    (hk0 : (k 0).val = t.val) (hk1 : (k 1).val = (y 1).val) (hk2 : (k 2).val = (y 2).val) :
    ((cfg0.win 2).blk t).view.emb y = k := by
  obtain ⟨-, -, -, -, -, -, e0, e1, e2, -⟩ := idx_facts t
  have h0 : (y 0).val < 1 := (y 0).isLt
  funext a; apply Fin.ext
  match a with
  | ⟨0, _⟩ => show win0_2.index t (0 : Fin 3) * 1 + 1 * (y 0).val = (k 0).val; omega
  | ⟨1, _⟩ => show win0_2.index t (1 : Fin 3) * 4096 + 1 * (y 1).val = (k 1).val; omega
  | ⟨2, _⟩ => show win0_2.index t (2 : Fin 3) * 64 + 1 * (y 2).val = (k 2).val; omega
theorem emb3 (t : Fin cfg0.N) (y : S1x4096x64.Idx) (k : S16x4096x64.Idx)
    (hk0 : (k 0).val = t.val) (hk1 : (k 1).val = (y 1).val) (hk2 : (k 2).val = (y 2).val) :
    ((cfg0.win 3).blk t).view.emb y = k := by
  obtain ⟨-, -, -, -, -, -, -, -, -, e0, e1, e2⟩ := idx_facts t
  have h0 : (y 0).val < 1 := (y 0).isLt
  funext a; apply Fin.ext
  match a with
  | ⟨0, _⟩ => show win0_3.index t (0 : Fin 3) * 1 + 1 * (y 0).val = (k 0).val; omega
  | ⟨1, _⟩ => show win0_3.index t (1 : Fin 3) * 4096 + 1 * (y 1).val = (k 1).val; omega
  | ⟨2, _⟩ => show win0_3.index t (2 : Fin 3) * 64 + 1 * (y 2).val = (k 2).val; omega

/-- The head of a grid point. -/
def headOf (t : Fin cfg0.N) : Fin 16 := ⟨t.val, by have h := t.isLt; have e : cfg0.N = 16 := N_0; omega⟩

/-- Each input block at point t is slab t of its array, read entry by entry. -/
theorem iblk0_apply (c : Dev nD) (t : Fin cfg0.N) (s : Fin 4096) (e : Fin 64) :
    (iblk m c 0 t : Vec Ideal S1x4096x64 .f32) (ix3 (0 : Fin 1) s e) = (V m c main_v0 : S16x4096x64.Idx → EReal) (ix3 (headOf t) s e) := by
  show V m c main_v0 (((cfg0.win 0).blk t).view.emb (ix3 (0 : Fin 1) s e)) = V m c main_v0 (ix3 (headOf t) s e)
  rw [emb0 t (ix3 (0 : Fin 1) s e) (ix3 (headOf t) s e) rfl rfl rfl]
theorem iblk1_apply (c : Dev nD) (t : Fin cfg0.N) (s : Fin 4096) (e : Fin 64) :
    (iblk m c 1 t : Vec Ideal S1x4096x64 .f32) (ix3 (0 : Fin 1) s e) = (V m c main_v1 : S16x4096x64.Idx → EReal) (ix3 (headOf t) s e) := by
  show V m c main_v1 (((cfg0.win 1).blk t).view.emb (ix3 (0 : Fin 1) s e)) = V m c main_v1 (ix3 (headOf t) s e)
  rw [emb1 t (ix3 (0 : Fin 1) s e) (ix3 (headOf t) s e) rfl rfl rfl]
theorem iblk2_apply (c : Dev nD) (t : Fin cfg0.N) (s : Fin 4096) (e : Fin 64) :
    (iblk m c 2 t : Vec Ideal S1x4096x64 .f32) (ix3 (0 : Fin 1) s e) = (V m c main_v2 : S16x4096x64.Idx → EReal) (ix3 (headOf t) s e) := by
  show V m c main_v2 (((cfg0.win 2).blk t).view.emb (ix3 (0 : Fin 1) s e)) = V m c main_v2 (ix3 (headOf t) s e)
  rw [emb2 t (ix3 (0 : Fin 1) s e) (ix3 (headOf t) s e) rfl rfl rfl]

/-- What the body stores at point t, entry (0, s, d), is entry (t, s, d) of headAttn of the three arrays. -/
theorem stored_apply (c : Dev nD) (t : Fin cfg0.N) (s : Fin 4096) (d : Fin 64) :
    k0_pay1 (F := Ideal) (iblk m c 0 t) (iblk m c 1 t) (iblk m c 2 t) (ix3 (0 : Fin 1) s d)
      = headAttnAt (V m c main_v0) (V m c main_v1) (V m c main_v2) (headOf t) s d := by
  refine (Body.pay_apply _ _ _ s d).trans ?_
  unfold headAttnAt
  refine Finset.sum_congr rfl fun e _ => ?_
  rw [iblk0_apply m c t s e]
  refine congrArg _ (Finset.sum_congr rfl fun u _ => ?_)
  rw [iblk1_apply m c t u e, iblk2_apply m c t u d]

/-- The same at any index y of the block, against the output window's own placement of y. -/
theorem stored_at (c : Dev nD) (t : Fin cfg0.N) (y : S1x4096x64.Idx) :
    k0_pay1 (F := Ideal) (iblk m c 0 t) (iblk m c 1 t) (iblk m c 2 t) y
      = headAttn (V m c main_v0) (V m c main_v1) (V m c main_v2) (((cfg0.win 3).blk t).view.emb y) := by
  have hy : y = ix3 (0 : Fin 1) ⟨(y 1).val, (y 1).isLt⟩ ⟨(y 2).val, (y 2).isLt⟩ := funext fun a => Fin.ext (by
    match a with
    | ⟨0, _⟩ => show (y 0).val = 0; have : (y 0).val < 1 := (y 0).isLt; omega
    | ⟨1, _⟩ => rfl
    | ⟨2, _⟩ => rfl)
  refine ((congrArg (k0_pay1 (F := Ideal) (iblk m c 0 t) (iblk m c 1 t) (iblk m c 2 t)) hy).trans
    (stored_apply m c t _ _)).trans ?_
  rw [emb3 t y (ix3 (headOf t) ⟨(y 1).val, (y 1).isLt⟩ ⟨(y 2).val, (y 2).isLt⟩) rfl rfl rfl]
  rfl

/-- WHAT POINT t WRITES BACK is slab t of headAttn of the arrays as the region finds them. -/
theorem flushed_eq (c : Dev nD) (t : Fin cfg0.N) :
    (dats m 0 c).flushed 3 t = ((cfg0.win 3).blk t).view.read (Elt Ideal) (headAttn (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x4096x64) hz]
  funext y
  exact stored_at m c t y

/-- An index of the output array is in point t's block iff each coordinate is in the block's range on its axis. -/
theorem mem_blk (t : Fin cfg0.N) (i : S16x4096x64.Idx) :
    i ∈ ((cfg0.win 3).blk t).view.set ↔ ∀ a : Fin 3, win0_3.index t a * S1x4096x64.size a ≤ (i a).val ∧ (i a).val < win0_3.index t a * S1x4096x64.size a + S1x4096x64.size a := by
  show i ∈ ((View.whole main_v3).slice (win0_3.rect t)).set ↔ _
  rw [View.set_slice_whole, Rect.mem_set_unit]
  exact Iff.rfl

/-- The 16 slabs cover the output array: row g is in the block of the point whose head is g. -/
theorem cover (i : S16x4096x64.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 64 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 64 ≤ (i 2).val ∧ (i 2).val < win0_3.index t (2 : Fin 3) * 64 + 64; omega

/-- THE OUTPUT ARRAY after the region: headAttn of the three arrays the region found. -/
theorem final (c : Dev nD) :
    (dats m 0 c).arrAt 3 cfg0.N = headAttn (V m c main_v0) (V m c main_v1) (V m c main_v2) :=
  (dats m 0 c).arrAt_eq_of_cover 3 _ (fun t _ => flushed_eq m c t) cover

end Cert.KernelIdeal.HeadArray

end
-- ==== Proof.HostSide.lean ====
/-
  The host lines around the region: merging and splitting the (batch, head) axes.

  Before the region each argument [2, 8, 4096, 64] is reshaped to [16, 4096, 64]; after it the output
  [16, 4096, 64] is reshaped back to [2, 8, 4096, 64]. A reshape keeps the row-major position, so entry
  (b, h, s, e) of the four-axis array is entry (8·b + h, s, e) of the three-axis one, both ways.
-/
import proofs.«125593_j26268019982930_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The merged (batch, head) index: g = 8·b + h. -/
def merge (b : Fin 2) (h : Fin 8) : Fin 16 := ⟨b.val * 8 + h.val, by have := b.isLt; have := h.isLt; omega⟩

/-- The merged array at (8·b + h, s, e) is the four-axis array at (b, h, s, e). -/
theorem merged_apply {α : Type} (x : S2x8x4096x64.Idx → α) (hc : S2x8x4096x64.ShapeCasts S16x4096x64)
    (b : Fin 2) (h : Fin 8) (s : Fin 4096) (e : Fin 64) :
    shapeCast S16x4096x64 x hc (ix3 (merge b h) s e) = x (ix4 b h s e) :=
  shapeCast_apply x hc _ _ (by rw [Shape.rowMajor_val_four, Shape.rowMajor_val_three]; rfl)

/-- The split array at (b, h, s, d) is the three-axis array at (8·b + h, s, d). -/
theorem split_apply {α : Type} (y : S16x4096x64.Idx → α) (hc : S16x4096x64.ShapeCasts S2x8x4096x64)
    (b : Fin 2) (h : Fin 8) (s : Fin 4096) (d : Fin 64) :
    shapeCast S2x8x4096x64 y hc (ix4 b h s d) = y (ix3 (merge b h) s d) :=
  shapeCast_apply y hc _ _ (by rw [Shape.rowMajor_val_four, Shape.rowMajor_val_three]; rfl)

variable (m : (ℓ : Loc nD τ sig) → Buf (Elt Ideal) ℓ) (ρ : Dev nD → PrngReg)

/-- The region finds its first array at the queries with (batch, head) merged; likewise the keys and the values. -/
theorem V_main_v0 (c : Dev nD) : (V m c main_v0 : S16x4096x64.Idx → EReal)
    = shapeCast S16x4096x64 (m ((c : Thread nD τ).loc main_arg0) : S2x8x4096x64.Idx → EReal) shapeCasts_S2x8x4096x64_S16x4096x64 := by
  show StableHlo.after hostOps0 (fun b => m (c, b)) (Proc.devRef .tc main_v0) = _
  after_results
  rfl
theorem V_main_v1 (c : Dev nD) : (V m c main_v1 : S16x4096x64.Idx → EReal)
    = shapeCast S16x4096x64 (m ((c : Thread nD τ).loc main_arg1) : S2x8x4096x64.Idx → EReal) shapeCasts_S2x8x4096x64_S16x4096x64 := by
  show StableHlo.after hostOps0 (fun b => m (c, b)) (Proc.devRef .tc main_v1) = _
  after_results
  rfl
theorem V_main_v2 (c : Dev nD) : (V m c main_v2 : S16x4096x64.Idx → EReal)
    = shapeCast S16x4096x64 (m ((c : Thread nD τ).loc main_arg2) : S2x8x4096x64.Idx → EReal) shapeCasts_S2x8x4096x64_S16x4096x64 := by
  show StableHlo.after hostOps0 (fun b => m (c, b)) (Proc.devRef .tc main_v2) = _
  after_results
  rfl

/-- The program's result is the region's output array with (batch, head) split again. -/
theorem tail_main_v4 (c : Dev nD) : (Pipeline.afterTail₀ cfgs (dats m) 0 (V0 m) [hostOps1] c main_v4 : S2x8x4096x64.Idx → EReal)
    = shapeCast S2x8x4096x64 ((dats m 0 c).arrAt 3 cfg0.N : S16x4096x64.Idx → EReal) shapeCasts_S16x4096x64_S2x8x4096x64 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v3)
      = (dats m 0 c).arrAt 3 cfg0.N from
    Pipeline.withArrays_arr spec0 launch0.win.arr_inj c (V0 m c) (fun w => (dats m 0 c).arrAt w cfg0.N) 3]
  rfl

end Cert.KernelIdeal.HostSide

end
-- ==== Proof.Result.lean ====
/-
  The kernel's result, keys-values first, and why it is the attention output.

  The program merges (batch, head) into one axis g = 8·b + h, lets the region compute, per g,
  out[g, s, d] = Σ_e Q[g, s, e] · Σ_t K[g, t, e] · V[g, t, d], and splits g again. Read at (b, h, s, d)
  that is the keys-values-first formula of the three arguments; on real entries it equals the
  scores-first one.
-/
import proofs.«125593_j26268019982930_2_alg».proof.Proof.HeadArray
import proofs.«125593_j26268019982930_2_alg».proof.Proof.HostSide
import proofs.«125593_j26268019982930_2_alg».proof.Proof.AttnLaw

noncomputable section

namespace Cert.KernelIdeal.Result

open Cert.KernelIdeal Cert.KernelIdeal.Gen Idealize.ShloMosaic Idealize.ShloMosaic.TcCoe Idealize.SL.Sem
open Idealize.ShloMosaic.ValueIdx
open Cert.AttnLaw (IsReal attn)

variable (m : (ℓ : Loc nD τ sig) → Buf (Elt Ideal) ℓ) (ρ : Dev nD → PrngReg)

/-- The program's result array, for real arguments, is the attention output of the arguments. -/
theorem result_eq (c : Dev nD)
    (hq : IsReal (m ((c : Thread nD τ).loc main_arg0))) (hk : IsReal (m ((c : Thread nD τ).loc main_arg1)))
    (hv : IsReal (m ((c : Thread nD τ).loc main_arg2))) :
    (Pipeline.afterTail₀ cfgs (dats m) 0 (V0 m) [hostOps1] c main_v4 : S2x8x4096x64.Idx → EReal)
      = attn (m ((c : Thread nD τ).loc main_arg0)) (m ((c : Thread nD τ).loc main_arg1)) (m ((c : Thread nD τ).loc main_arg2)) := by
  rw [HostSide.tail_main_v4, HeadArray.final, HostSide.V_main_v0, HostSide.V_main_v1, HostSide.V_main_v2]
  funext i
  obtain ⟨b, h, s, d, rfl⟩ : ∃ (b : Fin 2) (h : Fin 8) (s : Fin 4096) (d : Fin 64), i = ix4 b h s d :=
    ⟨i 0, i 1, i 2, i 3, eq_ix4 i⟩
  rw [HostSide.split_apply, Cert.AttnLaw.attn_ix4, ← Cert.AttnLaw.kvFirst_eq_scoresFirst hq hk hv]
  show HeadArray.headAttnAt _ _ _ (HostSide.merge b h) s d = _
  unfold HeadArray.headAttnAt Cert.AttnLaw.kvFirst
  simp only [HostSide.merged_apply]

/-- The kernel's run, read: for real arguments every weakly fair execution ends with the result array at the
    attention output of the arguments, and the arguments unchanged. -/
theorem run (hreal : ∀ c : Dev nD, IsReal (m ((c : Thread nD τ).loc main_arg0)) ∧ IsReal (m ((c : Thread nD τ).loc main_arg1))
      ∧ IsReal (m ((c : Thread nD τ).loc main_arg2))) :
    θ_run defs (onTc (τ := τ) (main (F := Ideal))) ⟨m, fun _ => 0, ρ⟩ fun r => ∀ c : Dev nD,
      r.2.mem ((c : Thread nD τ).loc main_v4)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans
          (result_eq m c (hreal c).1 (hreal c).2.1 (hreal c).2.2),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.Finite.lean ====
/-
  The precondition read entry by entry: every query, key and value is a real number.

  The precondition is the conjunction, over the three arguments, of "every entry x satisfies |x| < +∞",
  where |x| = max x (−x) on the extended reals and +∞ is the word of the f32 infinity. A conjunction of
  one-bit words is 1 exactly when each is; an all-reduction by "and" that is 1 had a 1 at every entry;
  and max x (−x) < ⊤ rules out both x = ⊤ and x = ⊥, leaving a real.
-/
import proofs.«125593_j26268019982930_2_alg».proof.Proof.Gen.Pre_finite_inputs
import proofs.«125593_j26268019982930_2_alg».proof.Proof.AttnLaw
import Idealize.ShloMosaic.PureOps.Ideal
import Idealize.ShloMosaic.Lib.ReduceAll
import Idealize.ShloMosaic.Lib.Affine
import Idealize.ShloMosaic.Lib.ValueIdx

noncomputable section

namespace Cert.Pre_finite_inputs.Decode

open Cert.Pre_finite_inputs Cert.Pre_finite_inputs.Gen Idealize.ShloMosaic Idealize.ShloMosaic.ValueIdx

/-- The f32 infinity word denotes the top of the extended reals. -/
theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- The rank-0 shape has one index. -/
instance : Subsingleton S_.Idx := ⟨fun a b => funext fun d => d.elim0⟩

/-- Where the precondition holds, each of the three arrays has only real entries. -/
theorem real_of_pre (x0 x1 x2 : FVec Ideal S2x8x4096x64 .f32) (h : fn (F := Ideal) x0 x1 x2 = fun _ => 1#1) :
    Cert.AttnLaw.IsReal x0 ∧ Cert.AttnLaw.IsReal x1 ∧ Cert.AttnLaw.IsReal x2 := by
  have h0 := congrFun h ix0
  dsimp only [fn] at h0
  obtain ⟨h01, e2⟩ := IntOp.andi_eq_one.mp h0
  obtain ⟨e0, e1⟩ := IntOp.andi_eq_one.mp h01
  exact ⟨fun i => real_of_abs_lt _ (Host.reduce_andi_all _ _ _ _ ix0 e0 i),
    fun i => real_of_abs_lt _ (Host.reduce_andi_all _ _ _ _ ix0 e1 i),
    fun i => real_of_abs_lt _ (Host.reduce_andi_all _ _ _ _ ix0 e2 i)⟩

end Cert.Pre_finite_inputs.Decode

end
-- ==== Proof.RefValue.lean ====
/-
  The reference, scores first.

  The reference forms the scores attn[b, h, s, t] = Σ_e q[b, h, s, e] · k[b, h, t, e] (a product batched
  over (b, h), contracting the features) and then out[b, h, s, d] = Σ_t attn[b, h, s, t] · v[b, h, t, d]
  (batched over (b, h), contracting the positions). Read at an index that is the scores-first formula.
-/
import proofs.«125593_j26268019982930_2_alg».proof.Proof.Gen.ReferenceIdeal.Read
import proofs.«125593_j26268019982930_2_alg».proof.Proof.AttnLaw

noncomputable section

namespace Cert.ReferenceIdeal.RefValue

open Cert.ReferenceIdeal Cert.ReferenceIdeal.Gen Idealize.ShloMosaic Idealize.ShloMosaic.ValueIdx

/-- The reference's result is the attention output of its three arguments, index by index. -/
theorem reference_eq (q k v : (⟨S2x8x4096x64, .f32⟩ : BufTy).Contents (Elt Ideal)) :
    Read.val_main_v1 (F := Ideal) q k v = Cert.AttnLaw.attn q k v := by
  funext i
  obtain ⟨b, h, s, d, rfl⟩ : ∃ (b : Fin 2) (h : Fin 8) (s : Fin 4096) (d : Fin 64), i = ix4 b h s d :=
    ⟨i 0, i 1, i 2, i 3, eq_ix4 i⟩
  rw [Read.val_main_v1_apply, Cert.AttnLaw.attn_ix4]
  unfold Cert.AttnLaw.scoresFirst
  refine Finset.sum_congr rfl fun t _ => ?_
  rw [Read.val_main_v0_apply]
  have eq : ∀ e : Fin 64, Read.lidx_main_v0 (Read.lidx_main_v1 (ix4 b h s d) t) e = ix4 b h s e := fun e =>
    funext fun a => Fin.ext (by match a with | ⟨0, _⟩ => rfl | ⟨1, _⟩ => rfl | ⟨2, _⟩ => rfl | ⟨3, _⟩ => rfl)
  have ek : ∀ e : Fin 64, Read.ridx_main_v0 (Read.lidx_main_v1 (ix4 b h s d) t) e = ix4 b h t e := fun e =>
    funext fun a => Fin.ext (by match a with | ⟨0, _⟩ => rfl | ⟨1, _⟩ => rfl | ⟨2, _⟩ => rfl | ⟨3, _⟩ => rfl)
  have ev : Read.ridx_main_v1 (ix4 b h s d) t = ix4 b h t d :=
    funext fun a => Fin.ext (by match a with | ⟨0, _⟩ => rfl | ⟨1, _⟩ => rfl | ⟨2, _⟩ => rfl | ⟨3, _⟩ => rfl)
  simp only [eq, ek, ev]

end Cert.ReferenceIdeal.RefValue

end
-- ==== Proof.lean ====
/-
  Unnormalised attention computed keys-values first equals the reference computed scores first.

  For queries q, keys k and values v of shape [batch 2, heads 8, positions 4096, features 64], the
  reference forms the 4096 × 4096 scores q kᵀ of each (batch, head) and multiplies them by v:

    out[b, h, s, d] = Σ_t (Σ_e q[b, h, s, e] · k[b, h, t, e]) · v[b, h, t, d].

  The kernel merges (batch, head) into one axis of 16, and at each of its 16 grid points forms the 64 × 64
  matrix kᵀ v of that head first and then multiplies q by it:

    out[b, h, s, d] = Σ_e q[b, h, s, e] · (Σ_t k[b, h, t, e] · v[b, h, t, d]).

  Both are the triple sum Σ_e Σ_t q · k · v. Passing from one to the other distributes a factor over a
  sum, which on the extended reals needs the entries to be real — this is where the precondition (every
  entry finite) is used. Each matrix product accumulates into zero, and exact arithmetic makes the order
  of a finite sum irrelevant, so no other law is needed.

  The parts: AttnLaw (the two formulas and the law joining them on real entries), Body (what the kernel
  body stores, at an index), HeadArray (the 16 per-head blocks are the slabs of one function and cover the
  output array), HostSide (the reshapes before and after the region, at an index), Result (the kernel's
  run read at the attention output), Finite (the precondition gives real entries), RefValue (the
  reference's two batched products are the scores-first formula). The idealized kernel restates the
  kernel's own operations (no rewrite), so the preservation claim is trivial.
-/
import proofs.«125593_j26268019982930_2_alg».proof.Defs
import proofs.«125593_j26268019982930_2_alg».proof.Proof.Gen.Kernel
import proofs.«125593_j26268019982930_2_alg».proof.Proof.Gen.Kernel.Skeleton
import proofs.«125593_j26268019982930_2_alg».proof.Proof.Gen.Kernel.Launch
import proofs.«125593_j26268019982930_2_alg».proof.Proof.Gen.Kernel.Points
import proofs.«125593_j26268019982930_2_alg».proof.Proof.Gen.Kernel.Frame
import proofs.«125593_j26268019982930_2_alg».proof.Proof.Gen.KernelIdeal
import proofs.«125593_j26268019982930_2_alg».proof.Proof.Gen.KernelIdeal.Skeleton
import proofs.«125593_j26268019982930_2_alg».proof.Proof.Gen.KernelIdeal.Launch
import proofs.«125593_j26268019982930_2_alg».proof.Proof.Gen.KernelIdeal.Points
import proofs.«125593_j26268019982930_2_alg».proof.Proof.Gen.KernelIdeal.Frame
import proofs.«125593_j26268019982930_2_alg».proof.Proof.Gen.ReferenceIdeal
import proofs.«125593_j26268019982930_2_alg».proof.Proof.Gen.Pre_finite_inputs
import proofs.«125593_j26268019982930_2_alg».proof.Proof.Gen.ReferenceIdeal.Run
import proofs.«125593_j26268019982930_2_alg».proof.Proof.Gen.ReferenceIdeal.Read
import proofs.«125593_j26268019982930_2_alg».proof.Proof.AttnLaw
import proofs.«125593_j26268019982930_2_alg».proof.Proof.Result
import proofs.«125593_j26268019982930_2_alg».proof.Proof.Finite
import proofs.«125593_j26268019982930_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on q, k and v (all real, by the precondition) both programs end with the
    attention output of those arrays: the kernel keys-values first, the reference scores first. -/
theorem algebraic : Cert.algebraic_KernelIdeal_ReferenceIdeal := by
  intro m ρ m' ρ' hpre hagree
  have hreal := fun c => Cert.Pre_finite_inputs.Decode.real_of_pre _ _ _ (hpre c)
  refine ⟨fun c => Cert.AttnLaw.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq]
  exact Cert.ReferenceIdeal.RefValue.reference_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
